-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4x4 : Shape := ⟨3, ![1048576, 4, 4]⟩
abbrev S32x4 : Shape := ⟨2, ![32, 4]⟩
abbrev S1048576 : Shape := ⟨1, ![1048576]⟩
abbrev S_ : Shape := ⟨0, ![]⟩

class Facts : Prop where
  bcast_S_S1048576x4x4 : S_.BroadcastsInDim S1048576x4x4 (![] : Fin 0 → Fin S1048576x4x4.rank)
  reducesTo_S1048576x4x4_S_d0_1_2 : S1048576x4x4.ReducesTo [0, 1, 2] S_
  h_S_ : 0 < S_.numel
  bcast_S_S32x4 : S_.BroadcastsInDim S32x4 (![] : Fin 0 → Fin S32x4.rank)
  reducesTo_S32x4_S_d0_1 : S32x4.ReducesTo [0, 1] S_

variable [Facts]

def fn {F : FTy → Type} [FloatOps F] (main_arg0 : FVec F S1048576x4x4 .f32) (main_arg1 : FVec F S32x4 .f32) (main_arg2 : IVec S1048576 32) : IVec S_ 1 :=
  let main_v0 : FVec F S1048576x4x4 .f32 := Host.absf main_arg0
  let main_cst : FVec F S_ .f32 := constant S_ .f32 0x7F800000#32
  let main_v1 : FVec F S1048576x4x4 .f32 := broadcastInDim S1048576x4x4 ![] bcast_S_S1048576x4x4 main_cst
  let main_v2 : IVec S1048576x4x4 1 := cmpf .olt main_v0 main_v1
  let main_c : IVec S_ 1 := constantI S_ 1 1#1
  let main_v3 : IVec S_ 1 := (fun x v => Host.reduce IntOp.andi x v reducesTo_S1048576x4x4_S_d0_1_2 h_S_) main_v2 main_c
  let main_v4 : FVec F S32x4 .f32 := Host.absf main_arg1
  let main_cst_0 : FVec F S_ .f32 := constant S_ .f32 0x7F800000#32
  let main_v5 : FVec F S32x4 .f32 := broadcastInDim S32x4 ![] bcast_S_S32x4 main_cst_0
  let main_v6 : IVec S32x4 1 := cmpf .olt main_v4 main_v5
  let main_c_1 : IVec S_ 1 := constantI S_ 1 1#1
  let main_v7 : IVec S_ 1 := (fun x v => Host.reduce IntOp.andi x v reducesTo_S32x4_S_d0_1 h_S_) main_v6 main_c_1
  let main_v8 : IVec S_ 1 := andi main_v3 main_v7
  main_v8
-- ==== Kernel.lean ====
abbrev S1048576x4x4 : Shape := ⟨3, ![1048576, 4, 4]⟩
abbrev S32x4 : Shape := ⟨2, ![32, 4]⟩
abbrev S1048576 : Shape := ⟨1, ![1048576]⟩
abbrev S4x128 : Shape := ⟨2, ![4, 128]⟩
abbrev S262144x64 : Shape := ⟨2, ![262144, 64]⟩
abbrev S4x32 : Shape := ⟨2, ![4, 32]⟩
abbrev S1x4x1x32 : Shape := ⟨4, ![1, 4, 1, 32]⟩
abbrev S4x4x1x32 : Shape := ⟨4, ![4, 4, 1, 32]⟩
abbrev S16x32 : Shape := ⟨2, ![16, 32]⟩
abbrev S4x4 : Shape := ⟨2, ![4, 4]⟩
abbrev S_ : Shape := ⟨0, ![]⟩
abbrev S4x1x4x1 : Shape := ⟨4, ![4, 1, 4, 1]⟩
abbrev S1x16x1x32 : Shape := ⟨4, ![1, 16, 1, 32]⟩
abbrev S4x16x4x32 : Shape := ⟨4, ![4, 16, 4, 32]⟩
abbrev S64x128 : Shape := ⟨2, ![64, 128]⟩
abbrev S262144x4 : Shape := ⟨2, ![262144, 4]⟩
abbrev S262144x128 : Shape := ⟨2, ![262144, 128]⟩
abbrev S8192x64 : Shape := ⟨2, ![8192, 64]⟩
abbrev S8192x4 : Shape := ⟨2, ![8192, 4]⟩
abbrev S8192x128 : Shape := ⟨2, ![8192, 128]⟩
abbrev S1048576x32 : Shape := ⟨2, ![1048576, 32]⟩

abbrev nBuf : Space → Nat
  | .hbm => 32
  | .vmem => 8
  | .smem => 0
  | _ => 0

abbrev bufTy : (tb : Table) → Fin (tcTables nBuf tb) → BufTy
  | .hbm, ⟨0, _⟩ => ⟨S1048576x4x4, .f32⟩
  | .hbm, ⟨1, _⟩ => ⟨S32x4, .f32⟩
  | .hbm, ⟨2, _⟩ => ⟨S1048576, .i32⟩
  | .hbm, ⟨3, _⟩ => ⟨S4x128, .f32⟩
  | .hbm, ⟨4, _⟩ => ⟨S262144x64, .f32⟩
  | .hbm, ⟨5, _⟩ => ⟨S4x32, .f32⟩
  | .hbm, ⟨6, _⟩ => ⟨S1x4x1x32, .f32⟩
  | .hbm, ⟨7, _⟩ => ⟨S4x4x1x32, .f32⟩
  | .hbm, ⟨8, _⟩ => ⟨S16x32, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x1x4x1, .f32⟩
  | .hbm, ⟨17, _⟩ => ⟨S1x16x1x32, .f32⟩
  | .hbm, ⟨18, _⟩ => ⟨S4x16x4x32, .f32⟩
  | .hbm, ⟨19, _⟩ => ⟨S4x16x4x32, .f32⟩
  | .hbm, ⟨20, _⟩ => ⟨S4x16x4x32, .f32⟩
  | .hbm, ⟨21, _⟩ => ⟨S64x128, .f32⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1048576, .f32⟩
  | .hbm, ⟨26, _⟩ => ⟨S_, .f32⟩
  | .hbm, ⟨27, _⟩ => ⟨S1048576, .f32⟩
  | .hbm, ⟨28, _⟩ => ⟨S1048576, .f32⟩
  | .hbm, ⟨29, _⟩ => ⟨S262144x4, .f32⟩
  | .hbm, ⟨30, _⟩ => ⟨S262144x128, .f32⟩
  | .hbm, ⟨31, _⟩ => ⟨S1048576x32, .f32⟩
  | .local _ .vmem, ⟨0, _⟩ => ⟨S8192x64, .f32⟩
  | .local _ .vmem, ⟨1, _⟩ => ⟨S8192x64, .f32⟩
  | .local _ .vmem, ⟨2, _⟩ => ⟨S64x128, .f32⟩
  | .local _ .vmem, ⟨3, _⟩ => ⟨S8192x4, .f32⟩
  | .local _ .vmem, ⟨4, _⟩ => ⟨S8192x4, .f32⟩
  | .local _ .vmem, ⟨5, _⟩ => ⟨S4x128, .f32⟩
  | .local _ .vmem, ⟨6, _⟩ => ⟨S8192x128, .f32⟩
  | .local _ .vmem, ⟨7, _⟩ => ⟨S8192x128, .f32⟩
  | _, _ => ⟨S1048576x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1048576x4x4_S262144x64 : S1048576x4x4.ShapeCasts S262144x64
  transposes_S32x4_S4x32_1_0 : S32x4.Transposes [1, 0] S4x32
  shapeCasts_S4x32_S1x4x1x32 : S4x32.ShapeCasts S1x4x1x32
  bcast_S1x4x1x32_S4x4x1x32_0_1_2_3 : S1x4x1x32.BroadcastsInDim S4x4x1x32 (![0, 1, 2, 3] : Fin 4 → Fin S4x4x1x32.rank)
  shapeCasts_S4x4x1x32_S16x32 : S4x4x1x32.ShapeCasts S16x32
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S16x32_S1x16x1x32_1_3 : S16x32.BroadcastsInDim S1x16x1x32 (![1, 3] : Fin 2 → Fin S1x16x1x32.rank)
  bcast_S4x1x4x1_S4x16x4x32_0_1_2_3 : S4x1x4x1.BroadcastsInDim S4x16x4x32 (![0, 1, 2, 3] : Fin 4 → Fin S4x16x4x32.rank)
  bcast_S1x16x1x32_S4x16x4x32_0_1_2_3 : S1x16x1x32.BroadcastsInDim S4x16x4x32 (![0, 1, 2, 3] : Fin 4 → Fin S4x16x4x32.rank)
  shapeCasts_S4x16x4x32_S64x128 : S4x16x4x32.ShapeCasts S64x128
  bcast_S_S1048576 : S_.BroadcastsInDim S1048576 (![] : Fin 0 → Fin S1048576.rank)
  shapeCasts_S1048576_S262144x4 : S1048576.ShapeCasts S262144x4
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x4_S8192x4_0_0 : ∀ a, (![0, 0] : Fin 2 → Nat) a + S8192x4.size a ≤ S8192x4.size a
  h_S8192x4 : 0 < S8192x4.numel
  shapeCasts_S8192x4_S8192x4 : S8192x4.ShapeCasts S8192x4
  inb_S4x128_S4x128_0_0 : ∀ a, (![0, 0] : Fin 2 → Nat) a + S4x128.size a ≤ S4x128.size a
  h_S4x128 : 0 < S4x128.numel
  inb_S8192x128_S8192x128_0_0 : ∀ a, (![0, 0] : Fin 2 → Nat) a + S8192x128.size a ≤ S8192x128.size a
  h_S8192x128 : 0 < S8192x128.numel
  shapeCasts_S262144x128_S1048576x32 : S262144x128.ShapeCasts S1048576x32
  dot_S8192x64_S64x128_S8192x128_1_0_0_1_n_n_wf : DotDims.WF S8192x64 S64x128 S8192x128 [1] [0] [0] [1] [] []
  dot_S8192x4_S4x128_S8192x128_1_0_0_1_n_n_wf : DotDims.WF S8192x4 S4x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x4.size a ≤ S262144x4.size a
  hwx0_2 : ∀ i : grid0.Coords, EltTy.bits .f32 = 32 ∨ (Rect.block (s := S262144x4) S8192x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S262144x128.size a
  hwx0_4 : ∀ i : grid0.Coords, EltTy.bits .f32 = 32 ∨ (Rect.block (s := S262144x128) S8192x128.size (cc0_transform_4 i) (hinb0_4 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x4_S4x128_S8192x128_1_0_0_1_n_n : DotDims S8192x4 S4x128 S8192x128 where
  lhsContracting := [1]
  rhsContracting := [0]
  lhsNonContracting := [0]
  rhsNonContracting := [1]
  lhsBatch := []
  rhsBatch := []
  wf := dot_S8192x4_S4x128_S8192x128_1_0_0_1_n_n_wf

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8192x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x4x4 : Shape := ⟨3, ![1048576, 4, 4]⟩
abbrev S32x4 : Shape := ⟨2, ![32, 4]⟩
abbrev S1048576 : Shape := ⟨1, ![1048576]⟩
abbrev S1048576x4x32 : Shape := ⟨3, ![1048576, 4, 32]⟩
abbrev S_ : Shape := ⟨0, ![]⟩
abbrev S1048576x32 : Shape := ⟨2, ![1048576, 32]⟩
abbrev S1048576x1 : Shape := ⟨2, ![1048576, 1]⟩

abbrev nBuf : Space → Nat
  | .hbm => 13
  | .vmem => 0
  | .smem => 0
  | _ => 0

abbrev bufTy : (tb : Table) → Fin (tcTables nBuf tb) → BufTy
  | .hbm, ⟨0, _⟩ => ⟨S1048576x4x4, .f32⟩
  | .hbm, ⟨1, _⟩ => ⟨S32x4, .f32⟩
  | .hbm, ⟨2, _⟩ => ⟨S1048576, .i32⟩
  | .hbm, ⟨3, _⟩ => ⟨S1048576x4x32, .f32⟩
  | .hbm, ⟨4, _⟩ => ⟨S_, .f32⟩
  | .hbm, ⟨5, _⟩ => ⟨S1048576x32, .f32⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .f32⟩
  | .hbm, ⟨10, _⟩ => ⟨S1048576x1, .f32⟩
  | .hbm, ⟨11, _⟩ => ⟨S1048576x32, .f32⟩
  | .hbm, ⟨12, _⟩ => ⟨S1048576x32, .f32⟩
  | _, _ => ⟨S1048576x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S1048576x4x32_S1048576x32_d1 : S1048576x4x32.ReducesTo [1] S1048576x32
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x32_0_1 : S1048576x1.BroadcastsInDim S1048576x32 (![0, 1] : Fin 2 → Fin S1048576x32.rank)
  dot_S1048576x4x4_S32x4_S1048576x4x32_2_1_01_0_n_n_wf : DotDims.WF S1048576x4x4 S32x4 S1048576x4x32 [2] [1] [0, 1] [0] [] []

variable [Facts₀]

def dot_S1048576x4x4_S32x4_S1048576x4x32_2_1_01_0_n_n : DotDims S1048576x4x4 S32x4 S1048576x4x32 where
  lhsContracting := [2]
  rhsContracting := [1]
  lhsNonContracting := [0, 1]
  rhsNonContracting := [0]
  lhsBatch := []
  rhsBatch := []
  wf := dot_S1048576x4x4_S32x4_S1048576x4x32_2_1_01_0_n_n_wf

class Facts : Prop extends Facts₀ where

variable [Facts]
-- ==== Proof.LibSumBlocks.lean ====
/-
  A sum over Fin (a * b), read in a blocks of b: position t * b + i is entry i of block t. (A product over a row-stack of a
  planes of b rows each is the sum over the planes of each plane's product; a convolution's taps packed along the contraction
  axis, tap-major, are the sum over the taps of each tap's channels.)
-/
import Mathlib.Algebra.BigOperators.Fin
import Mathlib.Logic.Equiv.Fin.Basic

namespace Cert.Lib

open scoped BigOperators

/-- BLOCKS OF A SUM: a sum over `Fin (a * b)` is the sum over the `a` blocks of the sums over each block's `b` entries, entry
    `i` of block `t` sitting at position `i + b * t`. -/
theorem sum_blocks {M : Type*} [AddCommMonoid M] (a b : Nat) (f : Fin (a * b) → M) :
    ∑ k : Fin (a * b), f k = ∑ t : Fin a, ∑ i : Fin b, f (finProdFinEquiv (t, i)) := by
  rw [← Equiv.sum_comp finProdFinEquiv f, Fintype.sum_prod_type]

/-- The position of entry `i` of block `t`. -/
theorem finProdFinEquiv_val (a b : Nat) (t : Fin a) (i : Fin b) : (finProdFinEquiv (t, i) : Fin (a * b)).val = i.val + b * t.val := rfl

/-- The same with the position spelled out, for a function given on the naturals below `a * b`. -/
theorem sum_blocks_nat {M : Type*} [AddCommMonoid M] (a b : Nat) (g : Nat → M) :
    ∑ k : Fin (a * b), g k.val = ∑ t : Fin a, ∑ i : Fin b, g (i.val + b * t.val) := by
  rw [sum_blocks a b (fun k => g k.val)]
  rfl

end Cert.Lib
-- ==== Proof.MeanPoolSpec.lean ====
/-
  The result both programs compute, as one function of the three argument arrays, and the algebra that joins the
  kernel's packed arrangement to it.

  For voxel v and output channel o the result is
      (sum over the points p and the input channels c of x[v, p, c] * W[o, c]) / max(count[v], 1):
  the per-point linear projection, summed over the voxel's four points, divided by the clamped point count.

  The kernel packs four consecutive voxels into one row of 64 inputs and 128 outputs and multiplies the row by a
  block-diagonal matrix whose entry (a*16 + p*4 + c, g*32 + o) is delta(a, g) * W[o, c]. A sum over the 64 packed
  inputs is a sum over (slot a, point p, channel c); the slots a other than g contribute x * (0 * W) = 0, so only
  the voxel's own slot remains. The reciprocal count is spread over the slot's 32 output lanes by a second product,
  with a matrix of zeros and ones, of which again one term remains. Finally s * (1 / n) = s / n for a nonzero real
  n, on every extended real s. None of these steps needs the inputs to be finite: on the extended reals a product
  with zero is zero and a product with one is the other factor, whatever that is.
-/
import Idealize.ShloMosaic.PureOps.Ideal.Laws
import Idealize.ShloMosaic.Lib.ValueIdx
import proofs.«170507_j91104846283338_2_alg».proof.Proof.LibSumBlocks

noncomputable section

namespace Cert.MeanPool

open Idealize.ShloMosaic Idealize.ShloMosaic.ValueIdx
open scoped BigOperators

/-- The clamped point count max(n, 1) of a signed 32-bit count, as a real number. -/
def clampedCount (n : BitVec 32) : ℝ := ((IntOp.maxsi n 1#32).toInt : ℝ)

/-- It is at least one, so it is not zero. -/
theorem clampedCount_ne_zero (n : BitVec 32) : clampedCount n ≠ 0 := by
  unfold clampedCount IntOp.maxsi
  have h : (0 : Int) < (if BitVec.slt 1#32 n then n else 1#32).toInt := by
    by_cases hs : BitVec.slt 1#32 n = true
    · rw [if_pos hs]
      have := BitVec.slt_iff_toInt_lt.mp hs
      have h1 : (1#32 : BitVec 32).toInt = 1 := by decide
      omega
    · rw [if_neg hs]; decide
  exact_mod_cast (ne_of_gt h)

/-- THE SPECIFICATION: entry (v, o) of the result is the projection of voxel v's four points on output channel o,
    summed (from the float zero the sum starts at), divided by the voxel's clamped point count. -/
def pooled (x : (⟨3, ![1048576, 4, 4]⟩ : Shape).Idx → EReal) (w : (⟨2, ![32, 4]⟩ : Shape).Idx → EReal)
    (cnt : (⟨1, ![1048576]⟩ : Shape).Idx → BitVec 32) : (⟨2, ![1048576, 32]⟩ : Shape).Idx → EReal :=
  fun i => Ideal.div (Ideal.ofBits .f32 0x00000000#32 + ∑ p : Fin 4, ∑ c : Fin 4, x (ix3 (i 0) p c) * w (ix2 (i 1) c))
    ((clampedCount (cnt (ix1 (i 0))) : ℝ) : EReal)

/-- The float one is the real one. -/
theorem ofBits_one_f32 : Ideal.ofBits .f32 0x3F800000#32 = 1 := by
  simp [Ideal.ofBits, Ideal.ieee, -EReal.coe_mul]
  norm_num

/-! ## The packed layout's coordinates -/

/-- Voxel 4*r + g: slot g of packed row r. -/
abbrev voxel (r : Fin 262144) (g : Fin 4) : Fin 1048576 := ⟨4 * r.val + g.val, by have := r.isLt; have := g.isLt; omega⟩
/-- Row p*4 + c of the tiled weight: input channel c of point p. -/
abbrev tiledRow (p c : Fin 4) : Fin 16 := ⟨p.val * 4 + c.val, by have := p.isLt; have := c.isLt; omega⟩
/-- Packed input a*16 + q: entry q of slot a's sixteen (point, channel) pairs. -/
abbrev packedIn (a : Fin 4) (q : Fin 16) : Fin 64 := ⟨a.val * 16 + q.val, by have := a.isLt; have := q.isLt; omega⟩
/-- Output lane g*32 + o: output channel o in slot g's band. -/
abbrev lane (g : Fin 4) (o : Fin 32) : Fin 128 := ⟨g.val * 32 + o.val, by have := g.isLt; have := o.isLt; omega⟩

/-- Every voxel is slot v % 4 of packed row v / 4. -/
theorem voxel_div_mod (v : Fin 1048576) :
    v = voxel ⟨v.val / 4, by have := v.isLt; omega⟩ ⟨v.val % 4, by omega⟩ := Fin.ext (by show v.val = 4 * (v.val / 4) + v.val % 4; omega)

/-- A sum over the 64 packed inputs of a row is the sum over the four voxel slots, the four points and the four
    input channels: input a*16 + p*4 + c is channel c of point p of slot a. -/
theorem sum_packed (f : Fin 64 → EReal) :
    ∑ k, f k = ∑ a : Fin 4, ∑ p : Fin 4, ∑ c : Fin 4, f (packedIn a (tiledRow p c)) := by
  rw [Cert.Lib.sum_blocks 4 16 f]
  refine Finset.sum_congr rfl fun a _ => ?_
  rw [Cert.Lib.sum_blocks 4 4 (fun q => f (finProdFinEquiv (a, q)))]
  refine Finset.sum_congr rfl fun p _ => Finset.sum_congr rfl fun c _ => ?_
  refine congrArg f (Fin.ext ?_)
  show (c.val + 4 * p.val) + 16 * a.val = a.val * 16 + (p.val * 4 + c.val)
  omega

/-- Against the block-diagonal matrix only the voxel's own slot g contributes. -/
theorem own_slot (xs : Fin 4 → Fin 4 → Fin 4 → EReal) (w : Fin 4 → EReal) (g : Fin 4) :
    ∑ a : Fin 4, ∑ p : Fin 4, ∑ c : Fin 4, xs a p c * ((if a = g then (1 : EReal) else 0) * w c)
      = ∑ p : Fin 4, ∑ c : Fin 4, xs g p c * w c := by
  rw [Finset.sum_eq_single g]
  · refine Finset.sum_congr rfl fun p _ => Finset.sum_congr rfl fun c _ => ?_
    rw [if_pos rfl, one_mul]
  · intro a _ hne
    refine Finset.sum_eq_zero fun p _ => Finset.sum_eq_zero fun c _ => ?_
    rw [if_neg hne, zero_mul, mul_zero]
  · intro h; exact absurd (Finset.mem_univ g) h

/-- Against the matrix of zeros and ones that spreads a row's four reciprocals over their 32-lane bands, only slot g's
    reciprocal remains in band g. -/
theorem own_band (inv : Fin 4 → EReal) (g : Fin 4) :
    ∑ j : Fin 4, inv j * (if g = j then (1 : EReal) else 0) = inv g := by
  rw [Finset.sum_eq_single g]
  · rw [if_pos rfl, mul_one]
  · intro j _ hne; rw [if_neg (Ne.symm hne), mul_zero]
  · intro h; exact absurd (Finset.mem_univ g) h

/-- A product with the reciprocal 1 / n is the quotient by n (the sum started from the float zero), for a nonzero real
    n and any extended real s. -/
theorem scale_eq_div (s : EReal) {n : ℝ} (hn : n ≠ 0) :
    s * Ideal.div (Ideal.ofBits .f32 0x3F800000#32) (n : EReal) = Ideal.div (Ideal.ofBits .f32 0x00000000#32 + s) (n : EReal) := by
  rw [Ideal.div_coe hn, Ideal.div_coe hn, Ideal.ofBits_zero_f32, zero_add, ofBits_one_f32, one_mul]

end Cert.MeanPool

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.BodyValue.lean ====
/-
  What the kernel's body computes from one tile, entry by entry.

  On a tile of 8192 packed rows the body multiplies the rows [8192, 64] by the block-diagonal matrix [64, 128],
  multiplies the rows' reciprocal counts [8192, 4] by the band marks [4, 128], and multiplies the two products entry
  by entry. At the exact extended reals the changes of float format are the identity and each matrix product into
  a zero accumulator is the plain sum over the contracted coordinate, so entry (p, q) of the tile's result is
      (sum over k < 64 of rows (p, k) * matrix (k, q)) * (sum over j < 4 of reciprocals (p, j) * marks (j, q)).
-/
import proofs.«170507_j91104846283338_2_alg».proof.Proof.Gen.KernelIdeal.Skeleton
import proofs.«170507_j91104846283338_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- Entry (p, q) of the tile the body stores: the packed rows' product with the block-diagonal matrix, times the
    reciprocals' product with the band marks. -/
theorem tile_apply (x0 : Vec Ideal S8192x64 .f32) (x1 : Vec Ideal S64x128 .f32) (x2 : Vec Ideal S8192x4 .f32)
    (x3 : Vec Ideal S4x128 .f32) (p : Fin 8192) (q : Fin 128) :
    k0_pay1 (F := Ideal) x0 x1 x2 x3 (ix2 p q)
      = (∑ k : Fin 64, x0 (ix2 p k) * x1 (ix2 k q)) * (∑ j : Fin 4, x2 (ix2 p j) * x3 (ix2 j q)) := by
  unfold k0_pay1
  refine (mulf_apply _ _ _).trans ?_
  refine congrArg₂ (· * ·) ?_ ?_
  · refine (Cert.SE.Lib.matmul_plain_apply dot_S8192x64_S64x128_S8192x128_1_0_0_1_n_n rfl rfl rfl rfl rfl rfl none _ _ p q).trans ?_
    refine Finset.sum_congr rfl fun k _ => ?_
    show (shapeCast S8192x64 x0 _) (ix2 p k) * (shapeCast S64x128 x1 _) (ix2 k q) = _
    rw [shapeCast_self, shapeCast_self]
  · refine (Cert.SE.Lib.matmul_plain_apply dot_S8192x4_S4x128_S8192x128_1_0_0_1_n_n rfl rfl rfl rfl rfl rfl none _ _ p q).trans ?_
    refine Finset.sum_congr rfl fun j _ => ?_
    show (shapeCast S8192x4 x2 _) (ix2 p j) * x3 (ix2 j q) = _
    rw [shapeCast_self]

end Cert.KernelIdeal.Body

end
-- ==== Proof.RegionValue.lean ====
/-
  The region's result array as one function of the four arrays it reads.

  Grid point t works on packed rows 8192 t .. 8192 t + 8191: it reads that tile of the packed features and of the
  reciprocal counts, the whole block-diagonal matrix and the whole matrix of band marks, and writes that tile of the
  result. So what point t writes back is tile t of ONE function of the four arrays,
      out (r, l) = (sum over k < 64 of features (r, k) * matrix (k, l)) * (sum over j < 4 of reciprocals (r, j) * marks (j, l)),
  and since the 32 tiles cover all 262144 rows, the array after the region is that function.
-/
import proofs.«170507_j91104846283338_2_alg».proof.Proof.Gen.KernelIdeal.Frame
import proofs.«170507_j91104846283338_2_alg».proof.Proof.BodyValue
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The region's result as one function of the packed features X, the block-diagonal matrix Wb, the reciprocal counts
    Inv and the band marks E. -/
def rowsOut (X : FVec Ideal S262144x64 .f32) (Wb : FVec Ideal S64x128 .f32) (Inv : FVec Ideal S262144x4 .f32)
    (E : FVec Ideal S4x128 .f32) : FVec Ideal S262144x128 .f32 :=
  fun i => (∑ k : Fin 64, X (ix2 (i 0) k) * Wb (ix2 k (i 1))) * (∑ j : Fin 4, Inv (ix2 (i 0) j) * E (ix2 j (i 1)))

/-- Every access of the body starts at the corner of its buffer. -/
theorem corner : (![0, 0] : Fin 2 → Nat) = fun _ => 0 := funext fun a => by fin_cases a <;> rfl

/-- The index maps over the grid: the features' and the reciprocals' tiles move with the result's tile along the rows,
    the two matrices stay put, and no map moves along the columns. -/
theorem tile_facts : ∀ t : Fin cfg0.N, win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every one of the 32 row tiles is some point's. -/
theorem tile_onto : ∀ b : Fin 32, ∃ t : Fin cfg0.N, win0_4.index t = ![b.val, 0] :=
  (by decide +kernel : ∀ b : Fin 32, ∃ t : Fin grid0.N, win0_4.index t = ![b.val, 0])

/-- WHAT POINT t WRITES BACK is tile t of the one function of the four arrays as the region finds them. -/
theorem flushed_eq (c : Dev nD) (t : Fin cfg0.N) :
    (dats m 0 c).flushed 4 t = ((cfg0.win 4).blk t).view.read (Elt Ideal)
      (rowsOut (V m c main_v0) (V m c main_v11) (V m c main_v17) (V m c main_cst)) := by
  show (cfg0.win 4).cut (grid0.coords t) ((dats m 0 c).after 4 t) = _
  rw [after0_4]
  unfold out0_4
  rw [View.canon_unit_zero corner]
  simp only [View.ld_unit_zero (S := S8192x64) corner, View.ld_unit_zero (S := S64x128) corner,
    View.ld_unit_zero (S := S8192x4) corner, View.ld_unit_zero (S := S4x128) corner]
  obtain ⟨e00, e01, e10, e11, e20, e21, e30, e31, e41, e40⟩ := tile_facts t
  funext y
  obtain ⟨p, q, rfl⟩ : ∃ (p : Fin 8192) (q : Fin 128), y = ix2 p q := ⟨y 0, y 1, eq_ix2 y⟩
  show k0_pay1 (F := Ideal) (iblk m c 0 t) (iblk m c 1 t) (iblk m c 2 t) (iblk m c 3 t) (ix2 p q)
      = rowsOut (V m c main_v0) (V m c main_v11) (V m c main_v17) (V m c main_cst) (((cfg0.win 4).blk t).view.emb (ix2 p q))
  have hp := p.isLt
  have hemb : ((cfg0.win 4).blk t).view.emb (ix2 p q)
      = ix2 (⟨win0_4.index t (0 : Fin 2) * 8192 + p.val, by omega⟩ : Fin 262144) q := by
    funext a; apply Fin.ext
    match a with
    | ⟨0, _⟩ => show win0_4.index t (0 : Fin 2) * 8192 + 1 * p.val = win0_4.index t (0 : Fin 2) * 8192 + p.val; omega
    | ⟨1, _⟩ => show win0_4.index t (1 : Fin 2) * 128 + 1 * q.val = q.val; omega
  refine Eq.trans ?_ (congrArg (rowsOut (V m c main_v0) (V m c main_v11) (V m c main_v17) (V m c main_cst)) hemb).symm
  refine (Body.tile_apply (iblk m c 0 t) (iblk m c 1 t) (iblk m c 2 t) (iblk m c 3 t) p q).trans ?_
  refine congrArg₂ (· * ·) (Finset.sum_congr rfl fun k _ => congrArg₂ (· * ·) ?_ ?_)
    (Finset.sum_congr rfl fun j _ => congrArg₂ (· * ·) ?_ ?_)
  · show V m c main_v0 (((cfg0.win 0).blk t).view.emb (ix2 p k)) = V m c main_v0 _
    refine congrArg (V m c main_v0) (funext fun a => Fin.ext ?_)
    match a with
    | ⟨0, _⟩ => show win0_0.index t (0 : Fin 2) * 8192 + 1 * p.val = win0_4.index t (0 : Fin 2) * 8192 + p.val; omega
    | ⟨1, _⟩ => show win0_0.index t (1 : Fin 2) * 64 + 1 * k.val = k.val; omega
  · show V m c main_v11 (((cfg0.win 1).blk t).view.emb (ix2 k q)) = V m c main_v11 _
    refine congrArg (V m c main_v11) (funext fun a => Fin.ext ?_)
    match a with
    | ⟨0, _⟩ => show win0_1.index t (0 : Fin 2) * 64 + 1 * k.val = k.val; omega
    | ⟨1, _⟩ => show win0_1.index t (1 : Fin 2) * 128 + 1 * q.val = q.val; omega
  · show V m c main_v17 (((cfg0.win 2).blk t).view.emb (ix2 p j)) = V m c main_v17 _
    refine congrArg (V m c main_v17) (funext fun a => Fin.ext ?_)
    match a with
    | ⟨0, _⟩ => show win0_2.index t (0 : Fin 2) * 8192 + 1 * p.val = win0_4.index t (0 : Fin 2) * 8192 + p.val; omega
    | ⟨1, _⟩ => show win0_2.index t (1 : Fin 2) * 4 + 1 * j.val = j.val; omega
  · show V m c main_cst (((cfg0.win 3).blk t).view.emb (ix2 j q)) = V m c main_cst _
    refine congrArg (V m c main_cst) (funext fun a => Fin.ext ?_)
    match a with
    | ⟨0, _⟩ => show win0_3.index t (0 : Fin 2) * 4 + 1 * j.val = j.val; omega
    | ⟨1, _⟩ => show win0_3.index t (1 : Fin 2) * 128 + 1 * q.val = q.val; omega

/-- An index of the result array is in point t's tile iff each coordinate is in the tile's range on its axis. -/
theorem mem_tile (t : Fin cfg0.N) (i : S262144x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v18).slice (win0_4.rect t)).set ↔ _
  rw [View.set_slice_whole, Rect.mem_set_unit]
  exact Iff.rfl

/-- Row r lies in the tile of point r / 8192: the tiles cover the array. -/
theorem covered (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  obtain ⟨t, ht⟩ := tile_onto ⟨(i 0).val / 8192, by omega⟩
  have q0 : win0_4.index t (0 : Fin 2) = (i 0).val / 8192 := congrFun ht 0
  have q1 : win0_4.index t (1 : Fin 2) = 0 := congrFun ht 1
  refine ⟨t, flush0_4 t, ?_⟩
  rw [mem_tile]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 128 ≤ (i 1).val ∧ (i 1).val < win0_4.index t (1 : Fin 2) * 128 + 128; omega

/-- THE ARRAY AFTER THE REGION is that function of the four arrays as the region finds them. -/
theorem final (c : Dev nD) :
    (dats m 0 c).arrAt 4 cfg0.N = rowsOut (V m c main_v0) (V m c main_v11) (V m c main_v17) (V m c main_cst) :=
  (dats m 0 c).arrAt_eq_of_cover 4 _ (fun t _ => flushed_eq m c t) covered

end Cert.KernelIdeal.Region

end
-- ==== Proof.HostStages.lean ====
/-
  The four arrays the kernel's region reads, as functions of the argument arrays, each read at an index.

  Before the region the program rearranges its arguments: the features x [V, 4, 4] are reshaped to rows of four
  voxels [V/4, 64]; the weight W [32, 4] is transposed, tiled over the four points and multiplied into a 4 x 4
  identity to give the block-diagonal matrix [64, 128]; the reciprocal clamped counts 1 / max(count, 1) are reshaped
  to [V/4, 4]; and a literal matrix [4, 128] of zeros and ones marks, for each of a row's four voxels, its band of
  32 output lanes. Read at an index:
    packed features (r, a*16 + p*4 + c)        = x (4r + a, p, c)
    block-diagonal  (a*16 + p*4 + c, g*32 + o) = delta(a, g) * W (o, c)
    reciprocals     (r, j)                     = 1 / max(count (4r + j), 1)
    band marks      (j, g*32 + o)              = 1 if g = j, else 0.
  Each reshape keeps the row-major position, so its index equation is one line of arithmetic.
-/
import proofs.«170507_j91104846283338_2_alg».proof.Proof.Gen.KernelIdeal
import proofs.«170507_j91104846283338_2_alg».proof.Proof.MeanPoolSpec
import Idealize.ShloMosaic.Lib.Pipeline.Value
import Idealize.ShloMosaic.Lib.ValueIdx
import Idealize.ShloMosaic.PureOps.Ideal.Laws

noncomputable section

namespace Cert.KernelIdeal.Packed

open Cert.KernelIdeal Cert.KernelIdeal.Gen Cert.MeanPool Idealize.ShloMosaic Idealize.ShloMosaic.ValueIdx

/-! ## The features, four voxels to a row -/

/-- The features reshaped to rows of four voxels. -/
def packedX (x : FVec Ideal S1048576x4x4 .f32) : FVec Ideal S262144x64 .f32 :=
  shapeCast S262144x64 x shapeCasts_S1048576x4x4_S262144x64

/-- Input a*16 + p*4 + c of row r is channel c of point p of voxel 4r + a. -/
theorem packedX_apply (x : FVec Ideal S1048576x4x4 .f32) (r : Fin 262144) (a p c : Fin 4) :
    packedX x (ix2 r (packedIn a (tiledRow p c))) = x (ix3 (voxel r a) p c) := by
  unfold packedX
  refine shapeCast_apply x _ _ _ ?_
  rw [Shape.rowMajor_val_three, Shape.rowMajor_val_two]
  show ((4 * r.val + a.val) * 4 + p.val) * 4 + c.val = r.val * 64 + (a.val * 16 + (p.val * 4 + c.val))
  omega

/-! ## The 4 x 4 identity -/

/-- The identity matrix as the program builds it: row number compared with column number, the truth value read as a float. -/
def eye4 : FVec Ideal S4x4 .f32 :=
  uitofp (F := Ideal) .f32 (cmpi .eq (addi (iotaInDim S4x4 32 0) (broadcastInDim S4x4 ![] bcast_S_S4x4 (constantI S_ 32 0#32)))
    (iotaInDim S4x4 32 1))

/-- The comparison of the two coordinates, as words. -/
theorem eye_bits : ∀ a b : Fin 4,
    IntOp.cmpi .eq (IntOp.addi (BitVec.ofNat 32 a.val) 0#32) (BitVec.ofNat 32 b.val) = if a = b then 1#1 else 0#1 := by decide

/-- Entry (a, b) is one on the diagonal and zero off it. -/
theorem eye4_apply (a b : Fin 4) : eye4 (ix2 a b) = if a = b then (1 : EReal) else 0 := by
  show (((IntOp.cmpi .eq (IntOp.addi (BitVec.ofNat 32 a.val) 0#32) (BitVec.ofNat 32 b.val)).toNat : ℝ) : EReal) = _
  rw [eye_bits]
  by_cases h : a = b
  · rw [if_pos h, if_pos h]; simp
  · rw [if_neg h, if_neg h]; simp

/-! ## The weight, transposed and tiled over the points -/

/-- The weight transposed to [4, 32] and repeated for each of the four points: [16, 32]. -/
def tiledW (w : FVec Ideal S32x4 .f32) : FVec Ideal S16x32 .f32 :=
  shapeCast S16x32 (broadcastInDim S4x4x1x32 ![0, 1, 2, 3] bcast_S1x4x1x32_S4x4x1x32_0_1_2_3
    (shapeCast S1x4x1x32 (transpose S4x32 [1, 0] w transposes_S32x4_S4x32_1_0) shapeCasts_S4x32_S1x4x1x32)) shapeCasts_S4x4x1x32_S16x32

/-- Row p*4 + c, column o, is W (o, c), whatever the point p. -/
theorem tiledW_apply (w : FVec Ideal S32x4 .f32) (p c : Fin 4) (o : Fin 32) : tiledW w (ix2 (tiledRow p c) o) = w (ix2 o c) := by
  unfold tiledW
  refine (shapeCast_apply _ _ _ (ix4 p c (0 : Fin 1) o) ?_).trans ?_
  · rw [Shape.rowMajor_val_four, Shape.rowMajor_val_two]
    show ((p.val * 4 + c.val) * 1 + 0) * 32 + o.val = (p.val * 4 + c.val) * 32 + o.val
    omega
  refine (broadcastInDim_apply _ _ _ _ (ix4 (0 : Fin 1) c (0 : Fin 1) o) ?_).trans ?_
  · intro a
    match a with
    | ⟨0, _⟩ => rfl
    | ⟨1, _⟩ => rfl
    | ⟨2, _⟩ => rfl
    | ⟨3, _⟩ => rfl
  refine (shapeCast_apply _ _ _ (ix2 c o) ?_).trans ?_
  · rw [Shape.rowMajor_val_two, Shape.rowMajor_val_four]
    show c.val * 32 + o.val = ((0 * 4 + c.val) * 1 + 0) * 32 + o.val
    omega
  exact transpose_apply _ _ _ _ (ix2 o c) (fun b => by match b with | ⟨0, _⟩ => rfl | ⟨1, _⟩ => rfl)

/-! ## The block-diagonal matrix -/

/-- The Kronecker product of a 4 x 4 matrix e with a 16 x 32 matrix wt, as the program builds it: both spread over
    [4, 16, 4, 32], multiplied, and reshaped to [64, 128]. -/
def blockDiag (e : FVec Ideal S4x4 .f32) (wt : FVec Ideal S16x32 .f32) : FVec Ideal S64x128 .f32 :=
  shapeCast S64x128 (mulf
      (broadcastInDim S4x16x4x32 ![0, 1, 2, 3] bcast_S4x1x4x1_S4x16x4x32_0_1_2_3 (broadcastInDim S4x1x4x1 ![0, 2] bcast_S4x4_S4x1x4x1_0_2 e))
      (broadcastInDim S4x16x4x32 ![0, 1, 2, 3] bcast_S1x16x1x32_S4x16x4x32_0_1_2_3 (broadcastInDim S1x16x1x32 ![1, 3] bcast_S16x32_S1x16x1x32_1_3 wt)))
    shapeCasts_S4x16x4x32_S64x128

/-- Entry (a*16 + q, g*32 + o) is e (a, g) * wt (q, o). -/
theorem blockDiag_apply (e : FVec Ideal S4x4 .f32) (wt : FVec Ideal S16x32 .f32) (a g : Fin 4) (q : Fin 16) (o : Fin 32) :
    blockDiag e wt (ix2 (packedIn a q) (lane g o)) = e (ix2 a g) * wt (ix2 q o) := by
  unfold blockDiag
  refine (shapeCast_apply _ _ _ (ix4 a q g o) ?_).trans ?_
  · rw [Shape.rowMajor_val_four, Shape.rowMajor_val_two]
    show ((a.val * 16 + q.val) * 4 + g.val) * 32 + o.val = (a.val * 16 + q.val) * 128 + (g.val * 32 + o.val)
    omega
  refine (mulf_apply _ _ _).trans ?_
  refine congrArg₂ (· * ·) ?_ ?_
  · refine (broadcastInDim_apply _ _ _ _ (ix4 a (0 : Fin 1) g (0 : Fin 1)) ?_).trans ?_
    · intro b
      match b with
      | ⟨0, _⟩ => rfl
      | ⟨1, _⟩ => rfl
      | ⟨2, _⟩ => rfl
      | ⟨3, _⟩ => rfl
    exact broadcastInDim_apply _ _ _ _ (ix2 a g) (fun b => by match b with | ⟨0, _⟩ => rfl | ⟨1, _⟩ => rfl)
  · refine (broadcastInDim_apply _ _ _ _ (ix4 (0 : Fin 1) q (0 : Fin 1) o) ?_).trans ?_
    · intro b
      match b with
      | ⟨0, _⟩ => rfl
      | ⟨1, _⟩ => rfl
      | ⟨2, _⟩ => rfl
      | ⟨3, _⟩ => rfl
    exact broadcastInDim_apply _ _ _ _ (ix2 q o) (fun b => by match b with | ⟨0, _⟩ => rfl | ⟨1, _⟩ => rfl)

/-! ## The reciprocal clamped counts, four to a row -/

/-- 1 / max(count, 1) for every voxel, reshaped to rows of four. -/
def invCount (cnt : IVec S1048576 32) : FVec Ideal S262144x4 .f32 :=
  shapeCast S262144x4 (Host.divf (F := Ideal) (broadcastInDim S1048576 ![] bcast_S_S1048576 (constant (F := Ideal) S_ .f32 0x3F800000#32))
    (sitofp .f32 (maxsi cnt (broadcastInDim S1048576 ![] bcast_S_S1048576 (constantI S_ 32 1#32))))) shapeCasts_S1048576_S262144x4

/-- Entry (r, j) is the float one divided by the clamped count of voxel 4r + j. -/
theorem invCount_apply (cnt : IVec S1048576 32) (r : Fin 262144) (j : Fin 4) :
    invCount cnt (ix2 r j) = Ideal.div (Ideal.ofBits .f32 0x3F800000#32) ((clampedCount (cnt (ix1 (voxel r j))) : ℝ) : EReal) := by
  unfold invCount
  refine (shapeCast_apply _ _ _ (ix1 (voxel r j)) ?_).trans ?_
  · rw [Shape.rowMajor_val_one, Shape.rowMajor_val_two]
    show 4 * r.val + j.val = r.val * 4 + j.val
    omega
  rfl

/-! ## The band marks -/

/-- The literal [4, 128] matrix, read from the program's table of words. -/
def bandOnes : FVec Ideal S4x128 .f32 := fun i => FloatOps.ofBits .f32 (lit0 (S4x128.rowMajor i))

/-- The table holds the word of the float one exactly where the lane's band number is the row number, the zero word
    elsewhere (all 512 entries looked up). -/
theorem lit_table : ∀ n : Fin 512, lit0t n.val = if (n.val % 128) / 32 = n.val / 128 then 0x3F800000#32 else 0x00000000#32 := by
  decide +kernel

/-- Entry (j, g*32 + o) is one when g = j and zero otherwise. -/
theorem bandOnes_apply (j g : Fin 4) (o : Fin 32) : bandOnes (ix2 j (lane g o)) = if g = j then (1 : EReal) else 0 := by
  have := j.isLt; have := g.isLt; have := o.isLt
  have hv : (S4x128.rowMajor (ix2 j (lane g o))).val = j.val * 128 + (g.val * 32 + o.val) := by
    rw [Shape.rowMajor_val_two]; rfl
  have h1 : (j.val * 128 + (g.val * 32 + o.val)) % 128 / 32 = g.val := by omega
  have h2 : (j.val * 128 + (g.val * 32 + o.val)) / 128 = j.val := by omega
  have ht : lit0t (j.val * 128 + (g.val * 32 + o.val))
      = if (j.val * 128 + (g.val * 32 + o.val)) % 128 / 32 = (j.val * 128 + (g.val * 32 + o.val)) / 128 then 0x3F800000#32 else 0x00000000#32 :=
    lit_table ⟨j.val * 128 + (g.val * 32 + o.val), by omega⟩
  show Ideal.ofBits .f32 (lit0t (S4x128.rowMajor (ix2 j (lane g o))).val) = _
  rw [hv, ht, h1, h2]
  by_cases h : g = j
  · rw [if_pos (congrArg Fin.val h), if_pos h, ofBits_one_f32]
  · rw [if_neg (fun e => h (Fin.ext e)), if_neg h, Ideal.ofBits_zero_f32]

end Cert.KernelIdeal.Packed

end
-- ==== Proof.RegionEntry.lean ====
/-
  The four arrays as the region finds them.

  When the region starts, the buffers it stages hold what the host operations before it wrote: the packed features,
  the block-diagonal matrix, the reciprocal counts in rows of four, and the band marks — each the function of the
  argument arrays that the stage definitions name. The block-diagonal matrix is built by a called function (the
  Kronecker product) from two values computed before the call, so it is read in three steps: the operations after the
  call do not touch it, the call's operations give it from the identity and the tiled weight, and the operations
  before the call give those two.
-/
import proofs.«170507_j91104846283338_2_alg».proof.Proof.Gen.KernelIdeal.Frame
import proofs.«170507_j91104846283338_2_alg».proof.Proof.HostStages
import Idealize.ShloMosaic.Lib.StableHlo.Run

noncomputable section

namespace Cert.KernelIdeal.Entry

open Cert.KernelIdeal Cert.KernelIdeal.Gen Cert.KernelIdeal.Packed Idealize.ShloMosaic Idealize.ShloMosaic.TcCoe Idealize.SL.Sem
open Idealize.ShloMosaic.StableHlo

variable (m : (ℓ : Loc nD τ sig) → Buf (Elt Ideal) ℓ)

/-- The packed features are the reshape of the features argument. -/
theorem entry_x (c : Dev nD) : (V m c main_v0 : S262144x64.Idx → EReal) = packedX (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The reciprocal counts in rows of four, from the counts argument. -/
theorem entry_inv (c : Dev nD) : (V m c main_v17 : S262144x4.Idx → EReal) = invCount (m ((c : Thread nD τ).loc main_arg2)) := by
  dsimp only [Gen.V, Gen.V0]
  simp only [Gen.hostOps0, Gen.hostOps0_1, Gen.hostOps0_2, List.flatten_cons, List.flatten_nil, List.append_nil, List.cons_append, List.nil_append]
  after_results
  rfl

/-- The band marks are the literal matrix. -/
theorem entry_marks (c : Dev nD) : (V m c main_cst : S4x128.Idx → EReal) = bandOnes := by
  dsimp only [Gen.V, Gen.V0]
  simp only [Gen.hostOps0, Gen.hostOps0_1, Gen.hostOps0_2, List.flatten_cons, List.flatten_nil, List.append_nil, List.cons_append, List.nil_append]
  after_results
  rfl

/-- The called function's operations, from any contents: the Kronecker product of what the two operand buffers hold. -/
theorem kron_stage (V' : Valuation τ sig (Elt Ideal)) :
    (after (hostOps0_1 (F := Ideal)) V' (Proc.devRef .tc main_v11) : S64x128.Idx → EReal)
      = blockDiag (V' (Proc.devRef .tc main_v10)) (V' (Proc.devRef .tc main_v4)) := by
  after_results
  rfl

/-- Before the call: the identity matrix, -/
theorem eye_stage (c : Dev nD) :
    (after (hostOps0 (F := Ideal)) (fun b => m (c, b)) (Proc.devRef .tc main_v10) : S4x4.Idx → EReal) = eye4 := by
  after_results
  rfl

/-- and the weight, transposed and tiled. -/
theorem tiled_stage (c : Dev nD) :
    (after (hostOps0 (F := Ideal)) (fun b => m (c, b)) (Proc.devRef .tc main_v4) : S16x32.Idx → EReal)
      = tiledW (m ((c : Thread nD τ).loc main_arg1)) := by
  after_results
  rfl

/-- The block-diagonal matrix is the Kronecker product of the identity with the tiled weight. -/
theorem entry_w (c : Dev nD) :
    (V m c main_v11 : S64x128.Idx → EReal) = blockDiag eye4 (tiledW (m ((c : Thread nD τ).loc main_arg1))) := by
  dsimp only [Gen.V, Gen.V0]
  rw [show List.flatten [hostOps0 (F := Ideal), hostOps0_1, hostOps0_2] = hostOps0 ++ (hostOps0_1 ++ hostOps0_2) from rfl,
    StableHlo.after_append, StableHlo.after_append]
  rw [StableHlo.after_of_forall_not_mem (b := Proc.devRef .tc main_v11) hostOps0_2 _ (List.forall_iff_forall_mem.mp (by
      simp only [hostOps0_2, List.Forall, StableHlo.nullary_writes, StableHlo.unary_writes, StableHlo.binary_writes,
        StableHlo.reshape_writes, Finset.mem_singleton]
      repeat' apply And.intro
      all_goals exact StableHlo.devRef_ne_of_ne (by decide)))]
  refine (kron_stage _).trans ?_
  exact congrArg₂ blockDiag (eye_stage m c) (tiled_stage m c)

end Cert.KernelIdeal.Entry

end
-- ==== Proof.KernelValue.lean ====
/-
  The kernel's result is the specification.

  After the region the program reshapes the result rows [V/4, 128] back to [V, 32]: entry (4r + g, o) of the result
  is entry (r, g*32 + o) of the rows. With the region's array as one function of the four arrays it reads, and
  those as functions of the arguments, entry (4r + g, o) is
      (sum over slots a, points p, channels c of x (4r + a, p, c) * (delta(a, g) * W (o, c)))
        * (sum over j of (1 / n (4r + j)) * delta(g, j)),
  where n is the clamped count. The first sum keeps slot g only, the second keeps j = g only, and the product with
  1 / n is the quotient by n: the specification's entry.
-/
import proofs.«170507_j91104846283338_2_alg».proof.Proof.RegionValue
import proofs.«170507_j91104846283338_2_alg».proof.Proof.RegionEntry
import proofs.«170507_j91104846283338_2_alg».proof.Proof.HostStages
import proofs.«170507_j91104846283338_2_alg».proof.Proof.MeanPoolSpec
import Idealize.ShloMosaic.Lib.StableHlo.Run

noncomputable section

namespace Cert.KernelIdeal.KernelValue

open Cert.KernelIdeal Cert.KernelIdeal.Gen Cert.KernelIdeal.Packed Cert.KernelIdeal.Region Cert.KernelIdeal.Entry Cert.MeanPool
open Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ) (ρ : Dev nD → PrngReg)

/-- The result rows reshaped to one row per voxel, in terms of the arguments, are the specification. -/
theorem rows_are_pooled (x : FVec Ideal S1048576x4x4 .f32) (w : FVec Ideal S32x4 .f32) (cnt : IVec S1048576 32) :
    shapeCast S1048576x32 (rowsOut (packedX x) (blockDiag eye4 (tiledW w)) (invCount cnt) bandOnes) shapeCasts_S262144x128_S1048576x32
      = pooled x w cnt := by
  funext i
  obtain ⟨v, o, rfl⟩ : ∃ (v : Fin 1048576) (o : Fin 32), i = ix2 v o := ⟨i 0, i 1, eq_ix2 i⟩
  obtain ⟨r, g, rfl⟩ : ∃ (r : Fin 262144) (g : Fin 4), v = voxel r g := ⟨_, _, voxel_div_mod v⟩
  refine (shapeCast_apply _ _ _ (ix2 r (lane g o)) ?_).trans ?_
  · rw [Shape.rowMajor_val_two, Shape.rowMajor_val_two]
    show r.val * 128 + (g.val * 32 + o.val) = (4 * r.val + g.val) * 32 + o.val
    omega
  show (∑ k : Fin 64, packedX x (ix2 r k) * blockDiag eye4 (tiledW w) (ix2 k (lane g o)))
        * (∑ j : Fin 4, invCount cnt (ix2 r j) * bandOnes (ix2 j (lane g o)))
      = Ideal.div (Ideal.ofBits .f32 0x00000000#32 + ∑ p : Fin 4, ∑ c : Fin 4, x (ix3 (voxel r g) p c) * w (ix2 o c))
          ((clampedCount (cnt (ix1 (voxel r g))) : ℝ) : EReal)
  rw [sum_packed]
  simp only [packedX_apply, blockDiag_apply, eye4_apply, tiledW_apply, invCount_apply, bandOnes_apply]
  refine (congrArg₂ (· * ·) (own_slot (fun a p c => x (ix3 (voxel r a) p c)) (fun c => w (ix2 o c)) g)
    (own_band (fun j => Ideal.div (Ideal.ofBits .f32 0x3F800000#32) ((clampedCount (cnt (ix1 (voxel r j))) : ℝ) : EReal)) g)).trans ?_
  exact scale_eq_div _ (clampedCount_ne_zero _)

/-- The reshape after the region reads the region's array. -/
theorem tail_value (c : Dev nD) :
    (Pipeline.afterTail₀ cfgs (dats m) 0 (V0 m) [hostOps1] c main_v19 : S1048576x32.Idx → EReal)
      = shapeCast S1048576x32 (rowsOut (V m c main_v0) (V m c main_v11) (V m c main_v17) (V m c main_cst)) shapeCasts_S262144x128_S1048576x32 := by
  unfold Pipeline.afterTail₀
  show StableHlo.after hostOps1 _ (Proc.devRef .tc main_v19) = _
  after_results
  have hw : Pipeline.withArrays (cfgs 0).spec c (V0 m c) (fun w => (dats m 0 c).arrAt w (cfgs 0).N) (Proc.devRef .tc main_v18)
      = rowsOut (V m c main_v0) (V m c main_v11) (V m c main_v17) (V m c main_cst) :=
    (Pipeline.withArrays_arr spec0 launch0.win.arr_inj c _ _ 4).trans (final m c)
  rw [hw]
  rfl

/-- THE KERNEL'S RESULT, as the frame run leaves it, is the specification of the three arguments. -/
theorem result_value (c : Dev nD) :
    (Pipeline.afterTail₀ cfgs (dats m) 0 (V0 m) [hostOps1] c main_v19 : S1048576x32.Idx → EReal)
      = pooled (m ((c.tc : Thread nD τ).loc main_arg0)) (m ((c.tc : Thread nD τ).loc main_arg1)) (m ((c.tc : Thread nD τ).loc main_arg2)) := by
  rw [tail_value, entry_x, entry_w, entry_inv, entry_marks]
  exact rows_are_pooled _ _ _

/-- THE KERNEL'S RUN: every weakly fair execution terminates with the result at the specification of the arguments and the
    arguments unchanged. -/
theorem run : θ_run defs (onTc (τ := τ) (main (F := Ideal))) ⟨m, fun _ => 0, ρ⟩ fun r => ∀ c : Dev nD,
      r.2.mem ((c.tc : Thread nD τ).loc main_v19)
        = pooled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference computes the specification.

  The reference contracts the features with the weight over the input channel, sums the result over the four points
  (starting from the float zero), clamps the counts at one, reads them as floats and divides. Read at entry (v, o),
  operation by operation, that is the specification's formula word for word; only the composed index maps need
  naming by coordinates.
-/
import proofs.«170507_j91104846283338_2_alg».proof.Proof.Gen.ReferenceIdeal.Read
import proofs.«170507_j91104846283338_2_alg».proof.Proof.MeanPoolSpec

noncomputable section

namespace Cert.ReferenceIdeal.RefValue

open Cert.ReferenceIdeal Cert.ReferenceIdeal.Gen Cert.MeanPool Idealize.ShloMosaic Idealize.ShloMosaic.ValueIdx
open scoped BigOperators

/-- The features' index under the sum over points p and the contraction over channels c, at result entry i. -/
theorem feature_idx (i : S1048576x32.Idx) (p c : Fin 4) : Read.lidx_main_v0 (Read.idx_main_v1 i p) c = ix3 (i 0) p c :=
  funext fun a => Fin.ext (by match a with | ⟨0, _⟩ => rfl | ⟨1, _⟩ => rfl | ⟨2, _⟩ => rfl)

/-- The weight's index there. -/
theorem weight_idx (i : S1048576x32.Idx) (p c : Fin 4) : Read.ridx_main_v0 (Read.idx_main_v1 i p) c = ix2 (i 1) c :=
  funext fun a => Fin.ext (by match a with | ⟨0, _⟩ => rfl | ⟨1, _⟩ => rfl)

/-- The count's index under the two broadcasts of the divisor. -/
theorem count_idx (i : S1048576x32.Idx) : Read.idx_main_v5 (Read.idx_main_v6 i) = ix1 (i 0) :=
  funext fun a => Fin.ext (by match a with | ⟨0, _⟩ => rfl)

/-- The reference's result is the specification of its three arguments. -/
theorem ref_is_pooled (x0 : (⟨S1048576x4x4, .f32⟩ : BufTy).Contents (Elt Ideal)) (x1 : (⟨S32x4, .f32⟩ : BufTy).Contents (Elt Ideal))
    (x2 : (⟨S1048576, .i32⟩ : BufTy).Contents (Elt Ideal)) :
    Read.val_main_v7 (F := Ideal) x0 x1 x2 = pooled x0 x1 x2 := by
  funext i
  rw [Read.val_main_v7_apply, Read.val_main_v1_apply, Read.val_main_cst_apply, Read.val_main_v6_apply, Read.val_main_v5_apply,
    Read.val_main_v4_apply, Read.val_main_v3_apply, Read.val_main_v2_apply, Read.val_main_c_apply]
  simp only [Read.val_main_v0_apply, feature_idx, weight_idx, count_idx]
  rfl

end Cert.ReferenceIdeal.RefValue

end
-- ==== Proof.lean ====
/-
  Per-voxel linear projection and mean pooling over points: the packed kernel against the plain reference.

  Both programs compute, for voxel v and output channel o,
      (sum over the four points p and the four input channels c of x[v, p, c] * W[o, c]) / max(count[v], 1).
  The reference does it directly: a contraction over the input channel, a sum over the points, a division by the
  clamped count. The kernel packs four consecutive voxels into one row of 64 inputs, multiplies 8192 rows at a time by
  a block-diagonal 64 x 128 matrix (four copies of the tiled, transposed weight on the diagonal), spreads the rows'
  four reciprocal counts over their 32-lane bands by a second product with a matrix of zeros and ones, multiplies
  the two results entry by entry, and reshapes the rows back to one per voxel.

  At the exact extended reals the two agree entry by entry, for all inputs: in the block-diagonal product the terms
  off the voxel's own diagonal block are x * (0 * W) = 0, in the spreading product the terms off the voxel's own band
  are (1/n) * 0 = 0, and the remaining s * (1/n) is s / n because n = max(count, 1) is a nonzero real number. The
  finiteness of the float inputs is not used.

  The three frames are the generated ones (the reference's is its generated run with the result dropped); the
  idealization rewrote no operation, so there is nothing to preserve; the value claim joins the kernel's run
  (KernelValue.run) and the reference's run, read operation by operation (RefValue.ref_is_pooled), at the one
  specification MeanPool.pooled.
-/
import proofs.«170507_j91104846283338_2_alg».proof.Defs
import proofs.«170507_j91104846283338_2_alg».proof.Proof.Gen.Kernel
import proofs.«170507_j91104846283338_2_alg».proof.Proof.Gen.Kernel.Skeleton
import proofs.«170507_j91104846283338_2_alg».proof.Proof.Gen.Kernel.Launch
import proofs.«170507_j91104846283338_2_alg».proof.Proof.Gen.Kernel.Points
import proofs.«170507_j91104846283338_2_alg».proof.Proof.Gen.Kernel.Frame
import proofs.«170507_j91104846283338_2_alg».proof.Proof.Gen.KernelIdeal
import proofs.«170507_j91104846283338_2_alg».proof.Proof.Gen.KernelIdeal.Skeleton
import proofs.«170507_j91104846283338_2_alg».proof.Proof.Gen.KernelIdeal.Launch
import proofs.«170507_j91104846283338_2_alg».proof.Proof.Gen.KernelIdeal.Points
import proofs.«170507_j91104846283338_2_alg».proof.Proof.Gen.KernelIdeal.Frame
import proofs.«170507_j91104846283338_2_alg».proof.Proof.Gen.ReferenceIdeal
import proofs.«170507_j91104846283338_2_alg».proof.Proof.Gen.Pre_finite_inputs
import proofs.«170507_j91104846283338_2_alg».proof.Proof.Gen.ReferenceIdeal.Run
import proofs.«170507_j91104846283338_2_alg».proof.Proof.Gen.ReferenceIdeal.Read
import proofs.«170507_j91104846283338_2_alg».proof.Proof.MeanPoolSpec
import proofs.«170507_j91104846283338_2_alg».proof.Proof.KernelValue
import proofs.«170507_j91104846283338_2_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both idealized programs end with the pooled projection of
    those arguments in their result. -/
theorem algebraic : Cert.algebraic_KernelIdeal_ReferenceIdeal := by
  intro m ρ m' ρ' _ hagree
  refine ⟨fun c => Cert.MeanPool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_is_pooled, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
